-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x2048 : Shape := ⟨2, ![512, 2048]⟩
abbrev S2048 : Shape := ⟨1, ![2048]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S65536x512 .f32) (main_arg1 : FVec F S512x2048 .f32) (main_arg2 : FVec F S2048 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S65536x512 : Shape := ⟨2, ![65536, 512]⟩
abbrev S512x2048 : Shape := ⟨2, ![512, 2048]⟩
abbrev S2048 : Shape := ⟨1, ![2048]⟩
abbrev S1x2048 : Shape := ⟨2, ![1, 2048]⟩
abbrev S65536x2048 : Shape := ⟨2, ![65536, 2048]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S512x2048, .f32⟩
  | .hbm, ⟨2, _⟩ => ⟨S2048, .f32⟩
  | .hbm, ⟨3, _⟩ => ⟨S1x2048, .f32⟩
  | .hbm, ⟨4, _⟩ => ⟨S65536x2048, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S65536x2048.size a
  hwx0_3 : ∀ i : grid0.Coords, EltTy.bits .f32 = 32 ∨ (Rect.block (s := S65536x2048) S512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x2048 : Shape := ⟨2, ![512, 2048]⟩
abbrev S2048 : Shape := ⟨1, ![2048]⟩
abbrev S65536x2048 : Shape := ⟨2, ![65536, 2048]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x2048, .f32⟩
  | .hbm, ⟨2, _⟩ => ⟨S2048, .f32⟩
  | .hbm, ⟨3, _⟩ => ⟨S65536x2048, .f32⟩
  | .hbm, ⟨4, _⟩ => ⟨S1x2048, .f32⟩
  | .hbm, ⟨5, _⟩ => ⟨S65536x2048, .f32⟩
  | .hbm, ⟨6, _⟩ => ⟨S65536x2048, .f32⟩
  | .hbm, ⟨7, _⟩ => ⟨S_, .f32⟩
  | .hbm, ⟨8, _⟩ => ⟨S_, .f32⟩
  | .hbm, ⟨9, _⟩ => ⟨S65536x2048, .f32⟩
  | .hbm, ⟨10, _⟩ => ⟨S65536x2048, .f32⟩
  | .hbm, ⟨11, _⟩ => ⟨S65536x2048, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  dot_S65536x512_S512x2048_S65536x2048_1_0_0_1_n_n_wf : DotDims.WF S65536x512 S512x2048 S65536x2048 [1] [0] [0] [1] [] []

variable [Facts₀]

def dot_S65536x512_S512x2048_S65536x2048_1_0_0_1_n_n : DotDims S65536x512 S512x2048 S65536x2048 where
  lhsContracting := [1]
  rhsContracting := [0]
  lhsNonContracting := [0]
  rhsNonContracting := [1]
  lhsBatch := []
  rhsBatch := []
  wf := dot_S65536x512_S512x2048_S65536x2048_1_0_0_1_n_n_wf

class Facts : Prop extends Facts₀ where

variable [Facts]
-- ==== Proof.Payload.lean ====
/-
  The kernel body's one stored value, read at an entry.

  At one grid point the body holds a block `xb : [512, 512]` of data rows, the whole weights `wb : [512, 2048]` and
  the offsets as a row `bb : [1, 2048]`, and stores `cos (xb · wb + bb) · 2⁻⁵` into a `[512, 2048]` block. Entry
  `(p, q)` of that block is

      cos ( Σ_{k < 512} xb[p, k] · wb[k, q]  +  bb[0, q] ) · 2⁻⁵ :

  the matrix unit's product into a zero accumulator is the plain sum over the contracted axis (the accumulator's
  zero word denotes `0`), the row of offsets is repeated down the 512 rows, and cosine, sum and product act entry
  by entry.
-/
import proofs.«111535_j78151224918211_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The product's operand indices at an output entry `i` and a contraction index `κ`, axis by axis: the left
    operand is read at row `i 0` and column `κ`, … -/
theorem lhs_row (i : S512x2048.Idx) (κ : dot_S512x512_S512x2048_S512x2048_1_0_0_1_n_n.contr.Idx) : (dot_S512x512_S512x2048_S512x2048_1_0_0_1_n_n.lhsIdx i κ 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl
theorem lhs_col (i : S512x2048.Idx) (κ : dot_S512x512_S512x2048_S512x2048_1_0_0_1_n_n.contr.Idx) : (dot_S512x512_S512x2048_S512x2048_1_0_0_1_n_n.lhsIdx i κ 1).val = (κ ⟨0, by decide⟩).val :=
  dot_S512x512_S512x2048_S512x2048_1_0_0_1_n_n.lhsIdx_val_of_single rfl i κ
/-- … the right operand at row `κ` and column `i 1`. -/
theorem rhs_row (i : S512x2048.Idx) (κ : dot_S512x512_S512x2048_S512x2048_1_0_0_1_n_n.contr.Idx) : (dot_S512x512_S512x2048_S512x2048_1_0_0_1_n_n.rhsIdx i κ 0).val = (κ ⟨0, by decide⟩).val :=
  dot_S512x512_S512x2048_S512x2048_1_0_0_1_n_n.rhsIdx_val_of_single rfl i κ
theorem rhs_col (i : S512x2048.Idx) (κ : dot_S512x512_S512x2048_S512x2048_1_0_0_1_n_n.contr.Idx) : (dot_S512x512_S512x2048_S512x2048_1_0_0_1_n_n.rhsIdx i κ 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The block product into a zero accumulator, at `(p, q)`: `Σ_k xb[p, k] · wb[k, q]` — the contraction's one axis
    of extent 512 re-indexed by `k : Fin 512`. -/
theorem product_at (xb : FVec Ideal S512x512 .f32) (wb : FVec Ideal S512x2048 .f32) (p : Fin 512) (q : Fin 2048) :
    matmul (F := Ideal) dot_S512x512_S512x2048_S512x2048_1_0_0_1_n_n (some .fp32) xb wb (constant (F := Ideal) S512x2048 .f32 0x00000000#32) (ix2 p q)
      = ∑ k : Fin 512, xb (ix2 p k) * wb (ix2 k q) := by
  refine (Ideal.matmul_constant_zero_apply dot_S512x512_S512x2048_S512x2048_1_0_0_1_n_n (some .fp32) xb wb (ix2 p q)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q) ((contrEquiv1 dot_S512x512_S512x2048_S512x2048_1_0_0_1_n_n 512 rfl rfl).symm k) = ix2 p k := funext fun a => Fin.ext (by
    match a with
    | ⟨0, _⟩ => exact lhs_row _ _
    | ⟨1, _⟩ => exact (lhs_col _ _).trans hk)
  have er : dot_S512x512_S512x2048_S512x2048_1_0_0_1_n_n.rhsIdx (ix2 p q) ((contrEquiv1 dot_S512x512_S512x2048_S512x2048_1_0_0_1_n_n 512 rfl rfl).symm k) = ix2 k q := funext fun a => Fin.ext (by
    match a with
    | ⟨0, _⟩ => exact (rhs_row _ _).trans hk
    | ⟨1, _⟩ => exact rhs_col _ _)
  rw [el, er]

/-- The row of offsets repeated down the block, at `(p, q)`: `bb[0, q]`. -/
theorem offsets_at (bb : FVec Ideal S1x2048 .f32) (p : Fin 512) (q : Fin 2048) :
    broadcastTo S512x2048 (shapeCast S1x2048 bb shapeCasts_S1x2048_S1x2048) broadcasts_S1x2048_S512x2048 (ix2 p q)
      = bb (ix2 (0 : Fin 1) q) := by
  rw [shapeCast_self]
  refine broadcastTo_apply bb broadcasts_S1x2048_S512x2048 (ix2 p q) (ix2 (0 : Fin 1) q) fun a => ?_
  match a with
  | ⟨0, _⟩ => show (0 : Nat) = if (1 : Nat) = 1 then 0 else _; rw [if_pos rfl]
  | ⟨1, _⟩ => show q.val = if (2048 : Nat) = 1 then 0 else q.val; rw [if_neg (by decide)]

/-- THE STORED VALUE at `(p, q)`: `cos (Σ_k xb[p, k] · wb[k, q] + bb[0, q]) · 2⁻⁵`. -/
theorem pay_at (xb : FVec Ideal S512x512 .f32) (wb : FVec Ideal S512x2048 .f32) (bb : FVec Ideal S1x2048 .f32)
    (p : Fin 512) (q : Fin 2048) :
    k0_pay1 (F := Ideal) xb wb bb (ix2 p q)
      = Ideal.cos ((∑ k : Fin 512, xb (ix2 p k) * wb (ix2 k q)) + bb (ix2 (0 : Fin 1) q)) * Ideal.ofBits .f32 0x3D000000#32 := by
  unfold k0_pay1
  show Ideal.cos (matmul (F := Ideal) dot_S512x512_S512x2048_S512x2048_1_0_0_1_n_n (some .fp32) xb wb (constant (F := Ideal) S512x2048 .f32 0x00000000#32) (ix2 p q)
      + broadcastTo S512x2048 (shapeCast S1x2048 bb shapeCasts_S1x2048_S1x2048) broadcasts_S1x2048_S512x2048 (ix2 p q))
    * Ideal.ofBits .f32 0x3D000000#32 = _
  rw [product_at, offsets_at]

end Cert.KernelIdeal.Payload

end
-- ==== Proof.Feature.lean ====
/-
  The random-feature map both programs compute, as ONE function of the three argument arrays, entry by entry.

  For a row `r` of the data `x : [65536, 512]` and a feature `j` of the weights `w : [512, 2048]` and offsets
  `b : [2048]`, the result's entry is

      cos ( Σ_{k < 512} x[r, k] · w[k, j]  +  b[j] ) · 2⁻⁵

  on the extended reals: the inner product of row `r` of `x` with column `j` of `w`, shifted by the offset, through
  the cosine, scaled by the constant `0.03125` (kept as its float pattern: both sides carry the same word, which is
  never evaluated here).
-/
import Idealize.ShloMosaic.PureOps.Ideal
import Idealize.ShloMosaic.Lib.ValueIdx

noncomputable section

open scoped BigOperators

namespace Cert.Feature

open Idealize.ShloMosaic Idealize.ShloMosaic.ValueIdx

/-- The projection of row `r` onto feature `j`, offset added: `Σ_k x[r, k] · w[k, j] + b[j]`. -/
def proj (x : FVec Ideal ⟨2, ![65536, 512]⟩ .f32) (w : FVec Ideal ⟨2, ![512, 2048]⟩ .f32) (b : FVec Ideal ⟨1, ![2048]⟩ .f32)
    (r : Fin 65536) (j : Fin 2048) : EReal :=
  (∑ k : Fin 512, x (ix2 r k) * w (ix2 k j)) + b (ix1 j)

/-- The whole result array: entry `(r, j)` is `cos (proj r j) · 2⁻⁵`. -/
def feature (x : FVec Ideal ⟨2, ![65536, 512]⟩ .f32) (w : FVec Ideal ⟨2, ![512, 2048]⟩ .f32) (b : FVec Ideal ⟨1, ![2048]⟩ .f32) :
    FVec Ideal ⟨2, ![65536, 2048]⟩ .f32 :=
  fun i => Ideal.cos (proj x w b (i 0) (i 1)) * Ideal.ofBits .f32 0x3D000000#32

end Cert.Feature

end
-- ==== Proof.KernelFeature.lean ====
/-
  The kernel's result array is the feature map of its arguments.

  The grid has 128 points. Point `t` is handed rows `512·t … 512·t + 511` of the data, the whole weights, and the
  offsets as the one row of a `[1, 2048]` array that the program makes from `b` by a reshape before the launch; it
  writes rows `512·t … 512·t + 511` of the result. Entry `(p, q)` of what it writes is the body's stored value, the
  feature map at `(512·t + p, q)`. The 128 row blocks tile the 65536 rows — row `r` lies in block `r / 512` — so
  after the run the whole result array is the feature map.
-/
import proofs.«111535_j78151224918211_2_alg».proof.Proof.Gen.KernelIdeal.Value
import proofs.«111535_j78151224918211_2_alg».proof.Proof.Payload
import proofs.«111535_j78151224918211_2_alg».proof.Proof.Feature
import Idealize.ShloMosaic.Lib.ValueLayout
import Idealize.ShloMosaic.Lib.StableHlo.Run

noncomputable section

open scoped BigOperators

namespace Cert.KernelIdeal.KernelFeature

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of each window at each grid point: the data and the result move down one row block per point,
    the weights and the offsets stay at their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks -/

/-- The offsets row the region finds: the reshape of `b` to `[1, 2048]`, whose entry `(0, q)` is `b[q]`. -/
theorem offsets_row (c : Dev nD) (q : Fin 2048) :
    (V m c main_v0 : S1x2048.Idx → EReal) (ix2 (0 : Fin 1) q) = (m ((c : Thread nD τ).loc main_arg2) : S2048.Idx → EReal) (ix1 q) := by
  have e : (V m c main_v0 : S1x2048.Idx → EReal)
      = shapeCast S1x2048 (m ((c : Thread nD τ).loc main_arg2) : S2048.Idx → EReal) shapeCasts_S2048_S1x2048 := by
    dsimp only [Gen.V, Gen.hostOps0]; after_results; rfl
  rw [e]
  exact shapeCast_a_1a_apply _ _ (0 : Fin 1) q

/-- The data block at point `t`, entry `(p, k)`: the data at row `512·t + p`, column `k`. -/
theorem data_block (c : Dev nD) (t : Fin cfg0.N) (p k : Fin 512) (r : Fin 65536) (hr : r.val = t.val * 512 + p.val) :
    (iblk m c 0 t : FVec Ideal S512x512 .f32) (ix2 p k) = (m ((c : Thread nD τ).loc main_arg0) : S65536x512.Idx → EReal) (ix2 r k) := by
  obtain ⟨e0, e1, -⟩ := block_index t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 512 + 1 * k.val = k.val; rw [e1]; omega

/-- The weights block at any point is the whole weights array. -/
theorem weights_block (c : Dev nD) (t : Fin cfg0.N) (k : Fin 512) (q : Fin 2048) :
    (iblk m c 1 t : FVec Ideal S512x2048 .f32) (ix2 k q) = (m ((c : Thread nD τ).loc main_arg1) : S512x2048.Idx → EReal) (ix2 k q) := by
  obtain ⟨-, -, e2, e3, -⟩ := block_index t
  unfold iblk
  rw [View.read_apply]
  show V m c main_arg1 _ = _
  rw [V_main_arg1]
  refine congrArg _ (funext fun a => Fin.ext ?_)
  match a with
  | ⟨0, _⟩ => show win0_1.index t (0 : Fin 2) * 512 + 1 * k.val = k.val; rw [e2]; omega
  | ⟨1, _⟩ => show win0_1.index t (1 : Fin 2) * 2048 + 1 * q.val = q.val; rw [e3]; omega

/-- The offsets block at any point is the whole offsets row: entry `(0, q)` is `b[q]`. -/
theorem offsets_block (c : Dev nD) (t : Fin cfg0.N) (q : Fin 2048) :
    (iblk m c 2 t : FVec Ideal S1x2048 .f32) (ix2 (0 : Fin 1) q) = (m ((c : Thread nD τ).loc main_arg2) : S2048.Idx → EReal) (ix1 q) := by
  obtain ⟨-, -, -, -, e4, e5, -⟩ := block_index t
  refine Eq.trans ?_ (offsets_row m c q)
  unfold iblk
  rw [View.read_apply]
  show V m c main_v0 _ = V m c main_v0 _
  refine congrArg _ (funext fun a => Fin.ext ?_)
  match a with
  | ⟨0, _⟩ => show win0_2.index t (0 : Fin 2) * 1 + 1 * 0 = 0; rw [e4]
  | ⟨1, _⟩ => show win0_2.index t (1 : Fin 2) * 2048 + 1 * q.val = q.val; rw [e5]; omega

/-! ## What a point writes back, and the whole array -/

/-- ONE ENTRY, over any arrays: if a data block `xb` holds row `r` of `x` as its row `p`, a weights block `wb` holds
    column `q` of `w`, and an offsets row `bb` holds `b[q]` at `(0, q)`, then the body's stored value at `(p, q)` is
    the feature map of `x`, `w`, `b` at `(r, q)`: both are `cos (Σ_k x[r, k] · w[k, q] + b[q]) · 2⁻⁵`. -/
theorem block_entry (x : FVec Ideal ⟨2, ![65536, 512]⟩ .f32) (w : FVec Ideal ⟨2, ![512, 2048]⟩ .f32) (b : FVec Ideal ⟨1, ![2048]⟩ .f32)
    (xb : FVec Ideal S512x512 .f32) (wb : FVec Ideal S512x2048 .f32) (bb : FVec Ideal S1x2048 .f32)
    (r : Fin 65536) (p : Fin 512) (q : Fin 2048)
    (hx : ∀ k : Fin 512, xb (ix2 p k) = x (ix2 r k)) (hw : ∀ k : Fin 512, wb (ix2 k q) = w (ix2 k q))
    (hb : bb (ix2 (0 : Fin 1) q) = b (ix1 q)) :
    k0_pay1 (F := Ideal) xb wb bb (ix2 p q) = Cert.Feature.feature x w b (ix2 r q) := by
  rw [Payload.pay_at xb wb bb p q, hb]
  simp only [hx, hw]
  rfl

/-- The feature map of the launch contents of the three arguments. -/
abbrev result (c : Dev nD) : FVec Ideal S65536x2048 .f32 :=
  Cert.Feature.feature (m ((c : Thread nD τ).loc main_arg0)) (m ((c : Thread nD τ).loc main_arg1)) (m ((c : Thread nD τ).loc main_arg2))

/-- WHAT POINT `t` WRITES BACK is block `t` of the feature map: rows `512·t … 512·t + 511`. -/
theorem flushed_eq (c : Dev nD) (t : Fin cfg0.N) :
    (dats m 0 c).flushed 3 t = ((cfg0.win 3).blk t).view.read (Elt Ideal) (result m c) := by
  have hN : cfg0.N = 128 := N_0
  have ht : t.val < 128 := hN ▸ t.isLt
  obtain ⟨-, -, -, -, -, -, e6, e7⟩ := block_index t
  rw [Value.flushed3]
  unfold out0_3
  rw [View.canon_unit_zero hz]
  simp only [View.ld_unit_zero (S := S512x512) hz, View.ld_unit_zero (S := S512x2048) hz, View.ld_unit_zero (S := S1x2048) hz]
  funext j
  show k0_pay1 (F := Ideal) (iblk m c 0 t) (iblk m c 1 t) (iblk m c 2 t) j = result m c (((cfg0.win 3).blk t).view.emb j)
  obtain ⟨p, q, rfl⟩ : ∃ (p : Fin 512) (q : Fin 2048), j = ix2 p q := ⟨j 0, j 1, eq_ix2 j⟩
  have hp : p.val < 512 := p.isLt
  -- the entry's place in the whole array
  have he : ((cfg0.win 3).blk t).view.emb (ix2 p q) = ix2 (⟨t.val * 512 + p.val, by omega⟩ : Fin 65536) q := by
    funext a
    apply Fin.ext
    match a with
    | ⟨0, _⟩ => show win0_3.index t (0 : Fin 2) * 512 + 1 * p.val = t.val * 512 + p.val; rw [e6]; omega
    | ⟨1, _⟩ => show win0_3.index t (1 : Fin 2) * 2048 + 1 * q.val = q.val; rw [e7]; omega
  rw [he]
  exact block_entry (m ((c : Thread nD τ).loc main_arg0)) (m ((c : Thread nD τ).loc main_arg1)) (m ((c : Thread nD τ).loc main_arg2))
    (iblk m c 0 t) (iblk m c 1 t) (iblk m c 2 t) ⟨t.val * 512 + p.val, by omega⟩ p q
    (fun k => data_block m c t p k ⟨t.val * 512 + p.val, by omega⟩ rfl) (fun k => weights_block m c t k q) (offsets_block m c t q)

/-- An index of the result array is in point `t`'s block iff each coordinate is in the block's range on its axis. -/
theorem mem_blk (t : Fin cfg0.N) (i : S65536x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v1).slice (win0_3.rect t)).set ↔ _
  rw [View.set_slice_whole, Rect.mem_set_unit]
  exact Iff.rfl

/-- THE COVER: row `r` of the result lies in the block of point `r / 512`. -/
theorem cover (i : S65536x2048.Idx) : ∃ t : Fin cfg0.N, (cfg0.win 3).flush t = true ∧ i ∈ ((cfg0.win 3).blk t).view.set := by
  have hN : cfg0.N = 128 := N_0
  have hi0 : (i 0).val < 65536 := (i 0).isLt
  have hi1 : (i 1).val < 2048 := (i 1).isLt
  refine ⟨⟨(i 0).val / 512, by rw [hN]; omega⟩, flush0_3 _, ?_⟩
  rw [mem_blk]
  obtain ⟨-, -, -, -, -, -, e6, e7⟩ := block_index ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e6]; show (i 0).val / 512 * 512 ≤ (i 0).val ∧ (i 0).val < (i 0).val / 512 * 512 + 512; omega
  | ⟨1, _⟩ =>
    show win0_3.index _ (1 : Fin 2) * 2048 ≤ (i 1).val ∧ (i 1).val < win0_3.index _ (1 : Fin 2) * 2048 + 2048
    rw [e7]; omega

/-- THE ARRAY after the run is the feature map of the arguments. -/
theorem final (c : Dev nD) : (dats m 0 c).arrAt 3 cfg0.N = result m c :=
  (dats m 0 c).arrAt_eq_of_cover 3 (result m c) (fun t _ => flushed_eq m c t) cover

/-- THE RUN, READ: every weakly fair execution terminates with the result array at the feature map of the arguments
    and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelFeature

end
-- ==== Proof.Scale.lean ====
/-
  The two float constants on which the programs differ, as extended reals.

  The kernel multiplies the cosine by the literal `0.03125 = 2⁻⁵`; the reference multiplies it by the square root
  of the literal `9.765625e-4 = 2⁻¹⁰`. Both patterns denote exact dyadic rationals, and `√(2⁻¹⁰) = 2⁻⁵` because
  `(2⁻⁵)² = 2⁻¹⁰` with `2⁻⁵ ≥ 0`. So the reference's computed scale is the kernel's literal.
-/
import Idealize.ShloMosaic.PureOps.Ideal

noncomputable section

namespace Cert.Scale

open Idealize.ShloMosaic

/-- The kernel's scale `0x3D000000` (sign 0, exponent 122 - 127 = -5, mantissa 0) denotes `1/32`. -/
theorem ofBits_inv32 : Ideal.ofBits .f32 0x3D000000#32 = ((1 / 32 : ℝ) : EReal) := by
  simp [Ideal.ofBits, Ideal.ieee, -EReal.coe_mul]; norm_num

/-- The reference's radicand `0x3A800000` (sign 0, exponent 117 - 127 = -10, mantissa 0) denotes `1/1024`. -/
theorem ofBits_inv1024 : Ideal.ofBits .f32 0x3A800000#32 = ((1 / 1024 : ℝ) : EReal) := by
  simp [Ideal.ofBits, Ideal.ieee, -EReal.coe_mul]; norm_num

/-- `√(1/1024) = 1/32` over the reals: `1/1024 = (1/32)²` and `1/32 ≥ 0`. -/
theorem real_sqrt_inv1024 : Real.sqrt (1 / 1024 : ℝ) = 1 / 32 := by
  rw [show (1 / 1024 : ℝ) = (1 / 32) ^ 2 by norm_num]
  exact Real.sqrt_sq (by norm_num)

/-- The reference's scale is the kernel's: the square root of the pattern of `2⁻¹⁰` is the pattern of `2⁻⁵`. -/
theorem sqrt_word : Ideal.sqrt (Ideal.ofBits .f32 0x3A800000#32) = Ideal.ofBits .f32 0x3D000000#32 := by
  rw [ofBits_inv1024, ofBits_inv32, Ideal.sqrt_coe, if_neg (by norm_num), real_sqrt_inv1024]

end Cert.Scale

end
-- ==== Proof.RefFeature.lean ====
/-
  The reference computes the feature map.

  Read one operation at a time, entry `i = (r, j)` of the reference's result is
  `cos (Σ_k x[r, k] · w[k, j] + b[j]) · √(2⁻¹⁰)`: the host's matrix product is the plain sum over the contracted
  axis, the two broadcasts of `b` read it at `j`, the host's cosine is the cosine, and the scalar `√(2⁻¹⁰)` is
  broadcast to every entry. With `√(2⁻¹⁰) = 2⁻⁵` this is `Cert.Feature.feature`.
-/
import proofs.«111535_j78151224918211_2_alg».proof.Proof.Gen.ReferenceIdeal.Read
import proofs.«111535_j78151224918211_2_alg».proof.Proof.Feature
import proofs.«111535_j78151224918211_2_alg».proof.Proof.Scale

noncomputable section

open scoped BigOperators

namespace Cert.ReferenceIdeal.RefFeature

open Cert.ReferenceIdeal Cert.ReferenceIdeal.Gen Cert.ReferenceIdeal.Read Idealize.ShloMosaic Idealize.ShloMosaic.ValueIdx

/-- The reference's last stage is the feature map of its three arguments. -/
theorem val_eq_feature (x0 : FVec Ideal S65536x512 .f32) (x1 : FVec Ideal S512x2048 .f32) (x2 : FVec Ideal S2048 .f32) :
    val_main_v7 (F := Ideal) x0 x1 x2 = Cert.Feature.feature x0 x1 x2 := by
  funext i
  -- the operand indices of the product at `(r, j)` and `k` are `(r, k)` and `(k, j)`; the offset is read at `j`
  have el : ∀ k : Fin 512, lidx_main_v0 i k = ix2 (i 0) k := fun k =>
    funext fun a => Fin.ext (by match a with | ⟨0, _⟩ => rfl | ⟨1, _⟩ => rfl)
  have er : ∀ k : Fin 512, ridx_main_v0 i k = ix2 k (i 1) := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v7_apply, val_main_v5_apply, val_main_v3_apply, val_main_v0_apply, val_main_v2_apply, val_main_v1_apply,
    val_main_v6_apply, val_main_v4_apply, val_main_cst_apply]
  simp only [el, er, eb, Ideal.hostUnary_cos_def, Ideal.hostUnary_sqrt_def, Ideal.addf_def, Ideal.mulf_def,
    Ideal.ofBits_def, Cert.Scale.sqrt_word]
  rfl

end Cert.ReferenceIdeal.RefFeature

end
-- ==== Proof.lean ====
/-
  Random Fourier features: `cos (x · W + b) · √(2/2048)` over `x : [65536, 512]`, `W : [512, 2048]`, `b : [2048]`.

  The kernel walks the 65536 rows in 128 blocks of 512; on each block it takes the matrix product with the whole of
  `W`, adds the offsets row, takes the cosine and multiplies by the literal `0.03125 = 2⁻⁵`. The reference takes the
  one whole matrix product, adds `b` broadcast over the rows, takes the cosine and multiplies by `√(2⁻¹⁰)`, the
  square root computed from the literal `2/2048 = 2⁻¹⁰`.

  On the extended reals both are ONE function of the arguments, entry by entry (Proof/Feature.lean):

      out[r, j] = cos ( Σ_{k < 512} x[r, k] · W[k, j]  +  b[j] ) · 2⁻⁵.

  * The reference is that function (Proof/RefFeature.lean): its product is the plain sum over `k`, its broadcasts
    read `b` at `j`, and `√(2⁻¹⁰) = 2⁻⁵` (Proof/Scale.lean: `(2⁻⁵)² = 2⁻¹⁰`, `2⁻⁵ ≥ 0`).
  * The kernel's stored block is that function on its rows (Proof/Payload.lean: the product into a zero
    accumulator is the same plain sum; Proof/KernelFeature.lean: block `t` holds rows `512·t … 512·t + 511`, and
    the 128 blocks tile the rows, row `r` lying in block `r / 512`).

  No law used needs finiteness: the two sides are the same expression, sum for sum and product for product, and the
  only rewriting is of one constant. The idealization rewrote nothing, so `preserves` is `True`.
-/
import proofs.«111535_j78151224918211_2_alg».proof.Defs
import proofs.«111535_j78151224918211_2_alg».proof.Proof.Gen.Kernel
import proofs.«111535_j78151224918211_2_alg».proof.Proof.Gen.Kernel.Frame
import proofs.«111535_j78151224918211_2_alg».proof.Proof.Gen.KernelIdeal
import proofs.«111535_j78151224918211_2_alg».proof.Proof.Gen.KernelIdeal.Frame
import proofs.«111535_j78151224918211_2_alg».proof.Proof.Gen.KernelIdeal.Value
import proofs.«111535_j78151224918211_2_alg».proof.Proof.Gen.ReferenceIdeal
import proofs.«111535_j78151224918211_2_alg».proof.Proof.Gen.ReferenceIdeal.Run
import proofs.«111535_j78151224918211_2_alg».proof.Proof.Gen.ReferenceIdeal.Read
import proofs.«111535_j78151224918211_2_alg».proof.Proof.Gen.Pre_finite_inputs
import proofs.«111535_j78151224918211_2_alg».proof.Proof.KernelFeature
import proofs.«111535_j78151224918211_2_alg».proof.Proof.RefFeature
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, `W` and `b`, both programs end with the result array at the feature map of
    those arguments: the kernel's by its blocks, the reference's by its operations read one at a time. -/
theorem algebraic : Cert.algebraic_KernelIdeal_ReferenceIdeal := by
  intro m ρ m' ρ' _ hagree
  refine ⟨fun c => Cert.KernelIdeal.KernelFeature.result m c, Cert.KernelIdeal.KernelFeature.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefFeature.val_eq_feature,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
